-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1600000 : Shape := ⟨1, ![1600000]⟩
abbrev S1000x64 : Shape := ⟨2, ![1000, 64]⟩
abbrev S64x32 : Shape := ⟨2, ![64, 32]⟩
abbrev S32 : Shape := ⟨1, ![32]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : IVec S100000 32) (main_arg1 : IVec S2x1600000 32) (main_arg2 : FVec F S1600000 .f32) (main_arg3 : FVec F S1000x64 .f32) (main_arg4 : FVec F S64x32 .f32) (main_arg5 : FVec F S32 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S1000x64 .f32 := Host.absf main_arg3
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S100000 : Shape := ⟨1, ![100000]⟩
abbrev S2x1600000 : Shape := ⟨2, ![2, 1600000]⟩
abbrev S1600000 : Shape := ⟨1, ![1600000]⟩
abbrev S1000x64 : Shape := ⟨2, ![1000, 64]⟩
abbrev S64x32 : Shape := ⟨2, ![64, 32]⟩
abbrev S32 : Shape := ⟨1, ![32]⟩
abbrev S_ : Shape := ⟨0, ![]⟩
abbrev S100000x1 : Shape := ⟨2, ![100000, 1]⟩
abbrev S100000x64 : Shape := ⟨2, ![100000, 64]⟩
abbrev S100000x32 : Shape := ⟨2, ![100000, 32]⟩
abbrev S10000x64 : Shape := ⟨2, ![10000, 64]⟩
abbrev S10000x32 : Shape := ⟨2, ![10000, 32]⟩
abbrev S1x1600000 : Shape := ⟨2, ![1, 1600000]⟩
abbrev S1700000 : Shape := ⟨1, ![1700000]⟩
abbrev S1700000x1 : Shape := ⟨2, ![1700000, 1]⟩
abbrev S1700000x32 : Shape := ⟨2, ![1700000, 32]⟩
abbrev S1x32 : Shape := ⟨2, ![1, 32]⟩

abbrev nBuf : Space → Nat
  | .hbm => 89
  | .vmem => 5
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S1600000, .f32⟩
  | .hbm, ⟨3, _⟩ => ⟨S1000x64, .f32⟩
  | .hbm, ⟨4, _⟩ => ⟨S64x32, .f32⟩
  | .hbm, ⟨5, _⟩ => ⟨S32, .f32⟩
  | .hbm, ⟨6, _⟩ => ⟨S_, .i32⟩
  | .hbm, ⟨7, _⟩ => ⟨S100000, .i32⟩
  | .hbm, ⟨8, _⟩ => ⟨S100000, .i1⟩
  | .hbm, ⟨9, _⟩ => ⟨S_, .i32⟩
  | .hbm, ⟨10, _⟩ => ⟨S100000, .i32⟩
  | .hbm, ⟨11, _⟩ => ⟨S100000, .i32⟩
  | .hbm, ⟨12, _⟩ => ⟨S100000, .i32⟩
  | .hbm, ⟨13, _⟩ => ⟨S100000x1, .i32⟩
  | .hbm, ⟨14, _⟩ => ⟨S100000x64, .f32⟩
  | .hbm, ⟨15, _⟩ => ⟨S100000x32, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S100000, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000, .f32⟩
  | .hbm, ⟨64, _⟩ => ⟨S1700000, .f32⟩
  | .hbm, ⟨65, _⟩ => ⟨S1700000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x32, .f32⟩
  | .hbm, ⟨75, _⟩ => ⟨S1700000x32, .f32⟩
  | .hbm, ⟨76, _⟩ => ⟨S1700000x32, .f32⟩
  | .hbm, ⟨77, _⟩ => ⟨S_, .f32⟩
  | .hbm, ⟨78, _⟩ => ⟨S100000x32, .f32⟩
  | .hbm, ⟨79, _⟩ => ⟨S1700000x1, .i32⟩
  | .hbm, ⟨80, _⟩ => ⟨S100000x32, .f32⟩
  | .hbm, ⟨81, _⟩ => ⟨S1x32, .f32⟩
  | .hbm, ⟨82, _⟩ => ⟨S100000x32, .f32⟩
  | .hbm, ⟨83, _⟩ => ⟨S100000x32, .f32⟩
  | .hbm, ⟨84, _⟩ => ⟨S_, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .local _ .vmem, ⟨0, _⟩ => ⟨S10000x64, .f32⟩
  | .local _ .vmem, ⟨1, _⟩ => ⟨S10000x64, .f32⟩
  | .local _ .vmem, ⟨2, _⟩ => ⟨S64x32, .f32⟩
  | .local _ .vmem, ⟨3, _⟩ => ⟨S10000x32, .f32⟩
  | .local _ .vmem, ⟨4, _⟩ => ⟨S10000x32, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  gather_S1000x64_S100000x1_S100000x64_1_0_n_n_0_1_164_wf : GatherDims.WF S1000x64 S100000x1 S100000x64 [1] [0] [] [0] [] 1 ![1, 64]
  dot_S10000x64_S64x32_S10000x32_1_0_0_1_n_n_wf : DotDims.WF S10000x64 S64x32 S10000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)

variable [Facts₀]

def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1600000 : Shape := ⟨1, ![1600000]⟩
abbrev S1000x64 : Shape := ⟨2, ![1000, 64]⟩
abbrev S64x32 : Shape := ⟨2, ![64, 32]⟩
abbrev S32 : Shape := ⟨1, ![32]⟩
abbrev S_ : Shape := ⟨0, ![]⟩
abbrev S100000x1 : Shape := ⟨2, ![100000, 1]⟩
abbrev S100000x64 : Shape := ⟨2, ![100000, 64]⟩
abbrev S100000x32 : Shape := ⟨2, ![100000, 32]⟩
abbrev S1x1600000 : Shape := ⟨2, ![1, 1600000]⟩
abbrev S1700000 : Shape := ⟨1, ![1700000]⟩
abbrev S1700000x1 : Shape := ⟨2, ![1700000, 1]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S1600000, .f32⟩
  | .hbm, ⟨3, _⟩ => ⟨S1000x64, .f32⟩
  | .hbm, ⟨4, _⟩ => ⟨S64x32, .f32⟩
  | .hbm, ⟨5, _⟩ => ⟨S32, .f32⟩
  | .hbm, ⟨6, _⟩ => ⟨S_, .i32⟩
  | .hbm, ⟨7, _⟩ => ⟨S100000, .i32⟩
  | .hbm, ⟨8, _⟩ => ⟨S100000, .i1⟩
  | .hbm, ⟨9, _⟩ => ⟨S_, .i32⟩
  | .hbm, ⟨10, _⟩ => ⟨S100000, .i32⟩
  | .hbm, ⟨11, _⟩ => ⟨S100000, .i32⟩
  | .hbm, ⟨12, _⟩ => ⟨S100000, .i32⟩
  | .hbm, ⟨13, _⟩ => ⟨S100000x1, .i32⟩
  | .hbm, ⟨14, _⟩ => ⟨S100000x64, .f32⟩
  | .hbm, ⟨15, _⟩ => ⟨S100000x32, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S100000, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000, .f32⟩
  | .hbm, ⟨64, _⟩ => ⟨S1700000, .f32⟩
  | .hbm, ⟨65, _⟩ => ⟨S1700000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x32, .f32⟩
  | .hbm, ⟨75, _⟩ => ⟨S1700000x32, .f32⟩
  | .hbm, ⟨76, _⟩ => ⟨S1700000x32, .f32⟩
  | .hbm, ⟨77, _⟩ => ⟨S_, .f32⟩
  | .hbm, ⟨78, _⟩ => ⟨S100000x32, .f32⟩
  | .hbm, ⟨79, _⟩ => ⟨S1700000x1, .i32⟩
  | .hbm, ⟨80, _⟩ => ⟨S100000x32, .f32⟩
  | .hbm, ⟨81, _⟩ => ⟨S1x32, .f32⟩
  | .hbm, ⟨82, _⟩ => ⟨S100000x32, .f32⟩
  | .hbm, ⟨83, _⟩ => ⟨S100000x32, .f32⟩
  | .hbm, ⟨84, _⟩ => ⟨S_, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  gather_S1000x64_S100000x1_S100000x64_1_0_n_n_0_1_164_wf : GatherDims.WF S1000x64 S100000x1 S100000x64 [1] [0] [] [0] [] 1 ![1, 64]
  dot_S100000x64_S64x32_S100000x32_1_0_0_1_n_n_wf : DotDims.WF S100000x64 S64x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelAround.lean ====
/-
  @main of the node-embedding pipeline around its one region. Before the region nine host lines look the
  node ids up in the embedding table (a negative id wrapped by the table's length first); the region is the
  linear layer x ↦ x · W on ten blocks of 10000 rows; after it seventy-three host lines build the edge lists
  with their self loops, the degrees, their inverse square roots under the two guards, the edge norms, the
  messages, their sum by target node, the bias and the mean over the nodes. Here: what every buffer holds when
  the region is entered, that the later lines stay within the buffers they may touch, allocate nothing and
  write none of the three arrays the region stages, and that no line ever writes an argument.
-/
import proofs.«147063_j80487687127273_2_alg».proof.Proof.Gen.Kernel.Launch
import proofs.«147063_j80487687127273_2_alg».proof.Proof.Gen.Kernel.Skeleton
import proofs.«147063_j80487687127273_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ) (ρ : Dev nD → PrngReg)

/-! ## The contents at the region's entry -/

/-- What core `c`'s buffers hold when the region is entered: the launch contents after the nine lines of the
    embedding lookup. -/
abbrev atEntry0 (c : Dev nD) : Valuation τ sig (Elt F) := StableHlo.after (List.flatten [hostOps0]) (fun b => m (c, b))
/-- The same, read at a reference of the core. -/
abbrev atEntry (c : Dev nD) (b : Ref sig .tc) : Buf (Elt F) ((c : Thread nD τ).loc b) := atEntry0 m c (Proc.devRef .tc b)

/-! ## No line allocates -/

theorem lookup_allocates_nothing : (hostOps0 : List (HloOp τ sig (Elt F))).Forall fun op => op.fresh = ∅ := by
  simp only [List.Forall]; repeat' constructor
theorem edges_allocate_nothing : (hostOps1 : List (HloOp τ sig (Elt F))).Forall fun op => op.fresh = ∅ := by
  simp only [List.Forall]; repeat' constructor
theorem guard1_allocates_nothing : (hostOps1_1 : List (HloOp τ sig (Elt F))).Forall fun op => op.fresh = ∅ := by
  simp only [List.Forall]; repeat' constructor
theorem rsqrt_allocates_nothing : (hostOps1_2 : List (HloOp τ sig (Elt F))).Forall fun op => op.fresh = ∅ := by
  simp only [List.Forall]; repeat' constructor
theorem guard2_allocates_nothing : (hostOps1_3 : List (HloOp τ sig (Elt F))).Forall fun op => op.fresh = ∅ := by
  simp only [List.Forall]; repeat' constructor
theorem aggregate_allocates_nothing : (hostOps1_4 : List (HloOp τ sig (Elt F))).Forall fun op => op.fresh = ∅ := by
  simp only [List.Forall]; repeat' constructor

/-! ## @main is the lookup, the region, the later lines -/

/-- @main reduces to the region continued by the seventy-three later lines, the buffers then at `atEntry`. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain (List.map StableHlo.seq [hostOps1, hostOps1_1, hostOps1_2, hostOps1_3, hostOps1_4])) :=
  Pipeline.hmain_around cfgs 0 defs₀ 𝒱₀ m main [hostOps0] [hostOps1, hostOps1_1, hostOps1_2, hostOps1_3, hostOps1_4] (by simp only [List.Forall]; exact hostOps0_sub)
    (by simp only [List.Forall]; exact lookup_allocates_nothing) main_chain

/-! ## The later lines' side conditions -/

/-- Every later line touches unscoped buffers of the core only; nothing being prefetched, each of those is one of
    the region's arrays or a buffer that bypasses the region. -/
theorem later_within : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem later_allocate_nothing : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp edges_allocate_nothing) op hop
  · exact (List.forall_iff_forall_mem.mp guard1_allocates_nothing) op hop
  · exact (List.forall_iff_forall_mem.mp rsqrt_allocates_nothing) op hop
  · exact (List.forall_iff_forall_mem.mp guard2_allocates_nothing) op hop
  · exact (List.forall_iff_forall_mem.mp aggregate_allocates_nothing) op hop

/-- Each line writes its own result buffer and nothing else, so a reference that is none of the results is written
    by no later line: decided reference by reference over the seventy-three lines. -/
local macro "no_later_line_writes_it" : tactic => `(tactic| (
  simp only [hostOps1, hostOps1_1, hostOps1_2, hostOps1_3, hostOps1_4, List.flatten_cons, List.flatten_nil, List.append_nil,
    List.cons_append, List.nil_append, List.Forall, StableHlo.nullary_writes, StableHlo.unary_writes, StableHlo.binary_writes, StableHlo.ternary_writes, StableHlo.reshape_writes, Finset.mem_singleton]
  repeat' apply And.intro
  all_goals exact StableHlo.devRef_ne_of_ne (by decide)))
/-- The same over the nine lines of the lookup. -/
local macro "no_lookup_line_writes_it" : tactic => `(tactic| (
  simp only [hostOps0, List.flatten_cons, List.flatten_nil, List.append_nil,
    List.cons_append, List.nil_append, List.Forall, StableHlo.nullary_writes, StableHlo.unary_writes, StableHlo.binary_writes, StableHlo.ternary_writes, StableHlo.reshape_writes, Finset.mem_singleton]
  repeat' apply And.intro
  all_goals exact StableHlo.devRef_ne_of_ne (by decide)))

theorem later_keep_x : ∀ op ∈ (List.flatten [hostOps1, hostOps1_1, hostOps1_2, hostOps1_3, hostOps1_4] : List (HloOp τ sig (Elt F))), Proc.devRef .tc main_v6 ∉ op.writes :=
  List.forall_iff_forall_mem.mp (by no_later_line_writes_it)
theorem later_keep_w : ∀ op ∈ (List.flatten [hostOps1, hostOps1_1, hostOps1_2, hostOps1_3, hostOps1_4] : List (HloOp τ sig (Elt F))), Proc.devRef .tc main_arg4 ∉ op.writes :=
  List.forall_iff_forall_mem.mp (by no_later_line_writes_it)
theorem later_keep_xw : ∀ op ∈ (List.flatten [hostOps1, hostOps1_1, hostOps1_2, hostOps1_3, hostOps1_4] : List (HloOp τ sig (Elt F))), Proc.devRef .tc main_v7 ∉ op.writes :=
  List.forall_iff_forall_mem.mp (by no_later_line_writes_it)

/-- No later line writes an array the region stages: the looked-up rows, the weights, the product. -/
theorem later_keep_arrays : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop w
  have hmem : op ∈ (List.flatten [hostOps1, hostOps1_1, hostOps1_2, hostOps1_3, hostOps1_4] : List (HloOp τ sig (Elt F))) := List.mem_flatten.mpr ⟨ops, hops, hop⟩
  fin_cases w
  · exact later_keep_x op hmem
  · exact later_keep_w op hmem
  · exact later_keep_xw op hmem

/-! ## The arguments, at the entry and at the end -/

theorem entry_arg0 (c : Dev nD) : atEntry m c main_arg0 = m ((c : Thread nD τ).loc main_arg0) :=
  StableHlo.after_of_forall_not_mem (b := Proc.devRef .tc main_arg0) _ _ (List.forall_iff_forall_mem.mp (by no_lookup_line_writes_it))
theorem entry_arg1 (c : Dev nD) : atEntry m c main_arg1 = m ((c : Thread nD τ).loc main_arg1) :=
  StableHlo.after_of_forall_not_mem (b := Proc.devRef .tc main_arg1) _ _ (List.forall_iff_forall_mem.mp (by no_lookup_line_writes_it))
theorem entry_arg2 (c : Dev nD) : atEntry m c main_arg2 = m ((c : Thread nD τ).loc main_arg2) :=
  StableHlo.after_of_forall_not_mem (b := Proc.devRef .tc main_arg2) _ _ (List.forall_iff_forall_mem.mp (by no_lookup_line_writes_it))
theorem entry_arg3 (c : Dev nD) : atEntry m c main_arg3 = m ((c : Thread nD τ).loc main_arg3) :=
  StableHlo.after_of_forall_not_mem (b := Proc.devRef .tc main_arg3) _ _ (List.forall_iff_forall_mem.mp (by no_lookup_line_writes_it))
theorem entry_arg4 (c : Dev nD) : atEntry m c main_arg4 = m ((c : Thread nD τ).loc main_arg4) :=
  StableHlo.after_of_forall_not_mem (b := Proc.devRef .tc main_arg4) _ _ (List.forall_iff_forall_mem.mp (by no_lookup_line_writes_it))
theorem entry_arg5 (c : Dev nD) : atEntry m c main_arg5 = m ((c : Thread nD τ).loc main_arg5) :=
  StableHlo.after_of_forall_not_mem (b := Proc.devRef .tc main_arg5) _ _ (List.forall_iff_forall_mem.mp (by no_lookup_line_writes_it))

/-- Argument 0 bypasses the region and no later line writes it: it ends as launched. -/
theorem exit_arg0 (dats : (p : Fin _) → (c : Dev nD) → Dat τ (Elt F) Unit ℕ (UR sig nD τ) ℕ (cfgs p) c) (c : Dev nD) :
    Pipeline.afterTail₀ cfgs dats 0 (atEntry0 m) [hostOps1, hostOps1_1, hostOps1_2, hostOps1_3, hostOps1_4] c main_arg0 = m ((c : Thread nD τ).loc main_arg0) := by
  unfold Pipeline.afterTail₀
  rw [StableHlo.after_of_forall_not_mem (b := Proc.devRef .tc main_arg0) _ _ (List.forall_iff_forall_mem.mp (by no_later_line_writes_it)),
    Pipeline.withArrays_of_ne _ c (atEntry0 m c) _ main_arg0 (by exact (by decide : ∀ w, Pipeline.arrRef spec0 w ≠ main_arg0))]
  exact entry_arg0 m c
/-- Argument 1 bypasses the region and no later line writes it: it ends as launched. -/
theorem exit_arg1 (dats : (p : Fin _) → (c : Dev nD) → Dat τ (Elt F) Unit ℕ (UR sig nD τ) ℕ (cfgs p) c) (c : Dev nD) :
    Pipeline.afterTail₀ cfgs dats 0 (atEntry0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by no_later_line_writes_it)),
    Pipeline.withArrays_of_ne _ c (atEntry0 m c) _ main_arg1 (by exact (by decide : ∀ w, Pipeline.arrRef spec0 w ≠ main_arg1))]
  exact entry_arg1 m c
/-- Argument 2 bypasses the region and no later line writes it: it ends as launched. -/
theorem exit_arg2 (dats : (p : Fin _) → (c : Dev nD) → Dat τ (Elt F) Unit ℕ (UR sig nD τ) ℕ (cfgs p) c) (c : Dev nD) :
    Pipeline.afterTail₀ cfgs dats 0 (atEntry0 m) [hostOps1, hostOps1_1, hostOps1_2, hostOps1_3, hostOps1_4] c main_arg2 = m ((c : Thread nD τ).loc main_arg2) := by
  unfold Pipeline.afterTail₀
  rw [StableHlo.after_of_forall_not_mem (b := Proc.devRef .tc main_arg2) _ _ (List.forall_iff_forall_mem.mp (by no_later_line_writes_it)),
    Pipeline.withArrays_of_ne _ c (atEntry0 m c) _ main_arg2 (by exact (by decide : ∀ w, Pipeline.arrRef spec0 w ≠ main_arg2))]
  exact entry_arg2 m c
/-- Argument 3 bypasses the region and no later line writes it: it ends as launched. -/
theorem exit_arg3 (dats : (p : Fin _) → (c : Dev nD) → Dat τ (Elt F) Unit ℕ (UR sig nD τ) ℕ (cfgs p) c) (c : Dev nD) :
    Pipeline.afterTail₀ cfgs dats 0 (atEntry0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (List.forall_iff_forall_mem.mp (by no_later_line_writes_it)),
    Pipeline.withArrays_of_ne _ c (atEntry0 m c) _ main_arg3 (by exact (by decide : ∀ w, Pipeline.arrRef spec0 w ≠ main_arg3))]
  exact entry_arg3 m c
/-- Argument 5 bypasses the region and no later line writes it: it ends as launched. -/
theorem exit_arg5 (dats : (p : Fin _) → (c : Dev nD) → Dat τ (Elt F) Unit ℕ (UR sig nD τ) ℕ (cfgs p) c) (c : Dev nD) :
    Pipeline.afterTail₀ cfgs dats 0 (atEntry0 m) [hostOps1, hostOps1_1, hostOps1_2, hostOps1_3, hostOps1_4] c main_arg5 = m ((c : Thread nD τ).loc main_arg5) := by
  unfold Pipeline.afterTail₀
  rw [StableHlo.after_of_forall_not_mem (b := Proc.devRef .tc main_arg5) _ _ (List.forall_iff_forall_mem.mp (by no_later_line_writes_it)),
    Pipeline.withArrays_of_ne _ c (atEntry0 m c) _ main_arg5 (by exact (by decide : ∀ w, Pipeline.arrRef spec0 w ≠ main_arg5))]
  exact entry_arg5 m c

end Cert.Kernel.Around

end
-- ==== Proof.KernelBody.lean ====
/-
  The linear layer's body at one grid point. It is handed a block of 10000 looked-up rows (64 wide), the whole
  64 × 32 weight matrix and the output block's buffer; it loads the two inputs, rounds both to the narrower
  float format, multiplies them into a zero accumulator and stores the 10000 × 32 product over the whole output
  block (the body also loads the output buffer first and never uses what it read). Here: what the output buffer
  holds afterwards as a function of the two input blocks, the body's triple, the pipeline's proof data — each
  input buffer at its block of the array, the output buffer at the product — and the body obligation at every
  point.
-/
import proofs.«147063_j80487687127273_2_alg».proof.Proof.KernelAround

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The rows' staging buffer holds the point's block of rows whenever the body is called: the block is fetched at
    every point. -/
theorem rows_held {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights' staging buffer holds the weight matrix whenever the body is called: it is fetched at the first point,
    and at the later ones the block's index has not moved and the body left the buffer as it was. -/
theorem weights_held {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block's buffer -/

/-- The three rectangles the body touches: each buffer whole. -/
abbrev allRows : Rect S10000x64 := Rect.unit (s := S10000x64) ![0, 0] S10000x64.size inb_S10000x64_S10000x64_0_0
abbrev allWeights : Rect S64x32 := Rect.unit (s := S64x32) ![0, 0] S64x32.size inb_S64x32_S64x32_0_0
abbrev allOut : Rect S10000x32 := Rect.unit (s := S10000x32) ![0, 0] S10000x32.size inb_S10000x32_S10000x32_0_0

/-- The output block's buffer after the body, from the two input blocks: its one store, the product of the loaded
    rows and the loaded weights, laid over the whole buffer. -/
def productBlock (x0 : Vec F S10000x64 .f32) (x1 : Vec F S64x32 .f32) : Vec F S10000x32 .f32 :=
  View.canon [⟨allOut, k0_pay1 (View.ld x0 allRows) (View.ld x1 allWeights)⟩]

/-- The one store covers the buffer. -/
theorem store_covers (p0 : Vec F S10000x32 .f32) (y : S10000x32.Idx) :
    ∃ pc ∈ ([⟨allOut, p0⟩] : List (View.Piece (Elt F) S10000x32 .f32)), y ∈ pc.1.set :=
  View.cover_of_tiled [⟨allOut, p0⟩] S10000x32.size (by rfl) y

/-! ## The body's triple -/

set_option maxHeartbeats 1000000 in
/-- On whole staging buffers, the rows' at `x0`, the weights' at `x1` and the output's at anything, the body runs to
    its end without a fault, leaves the inputs as they were and the output at `productBlock x0 x1`. -/
theorem body_runs (c : Dev nD) (E : Set ℕ) (i : grid0.Coords) (arg1 : Memref sig .tc .vmem S10000x64 .f32) (harg1 : arg1.IsWhole) (arg2 : Memref sig .tc .vmem S64x32 .f32) (harg2 : arg2.IsWhole) (arg3 : Memref sig .tc .vmem S10000x32 .f32) (harg3 : arg3.IsWhole)
    (x0 : Vec F S10000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (productBlock x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- On core `c`: the arrays as the region finds them; after the body at point `t` the rows' buffer at its block, the
    weights' at the matrix, the output's at their product; the invariant the scoped rest and the generator register,
    untouched; nothing owed; full shares. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => productBlock (blockAt m c 0 t) (blockAt m c 1 t)
  Φ _ := Pipeline.ΦA spec0 c
  q _ := fullShare
  owed _ := 0

theorem arrays_at_entry (c : Dev nD) (w : Fin cfg0.W) : (data m 0 c).A w = atEntry m c (Pipeline.arrRef spec0 w) := by
  dsimp only [data]

theorem after_rows (c : Dev nD) (t : Fin cfg0.N) : (data m 0 c).after 0 t = blockAt m c 0 t := by dsimp only [data]
theorem after_weights (c : Dev nD) (t : Fin cfg0.N) : (data m 0 c).after 1 t = blockAt m c 1 t := by dsimp only [data]
theorem after_product (c : Dev nD) (t : Fin cfg0.N) : (data m 0 c).after 2 t = productBlock (blockAt m c 0 t) (blockAt m c 1 t) := by dsimp only [data]

theorem before_rows (c : Dev nD) (t : Fin cfg0.N) (d) : (data m 0 c).before 0 t d = blockAt m c 0 t :=
  rows_held m (data m 0 c) (arrays_at_entry m c 0) (after_rows m c) t d
theorem before_weights (c : Dev nD) (t : Fin cfg0.N) (d) : (data m 0 c).before 1 t d = blockAt m c 1 t :=
  weights_held m (data m 0 c) (arrays_at_entry m c 1) (after_weights m c) t d

/-! ## The body obligation -/

/-- What the body is called with at point `t`, the windows one by one, -/
def calledWith (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d)))

/-- and what it returns. -/
def returns (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t))

/-- The body at any point: the input buffers hold their blocks, so the triple applies; the invariant and the core's
    debts pass through unread. -/
theorem body_at_point (c : Dev nD) (t : Fin cfg0.N) :
    calledWith m c t ⊢ wp frame (wpE (defs₀ (F := F)) Variants.none c none) Set.univ (bodyAt0 t) (fun _ => returns m c t) := by
  unfold calledWith returns bodyAt0
  simp only [before_rows, before_weights]
  rw [show (data m 0 c).Φ t.succ = (data m 0 c).Φ t.castSucc from rfl,
    show (data m 0 c).owesAt () t.succ = (data m 0 c).owesAt () t.castSucc from rfl,
    after_rows, after_weights, after_product]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (data (F := F) m 0 c) (defs₀ (F := F)) Variants.none () Set.univ := fun t => by
  rw [bigSep_W0, bigSep_W0]
  exact body_at_point m c t

end Cert.Kernel.Around

end
-- ==== Proof.KernelRun.lean ====
/-
  The whole run of @main: the lookup, the ten points of the linear layer, the seventy-three later lines. Every
  weakly fair execution terminates without a fault; at the end each array the region stages holds what the proof
  data say — the looked-up rows and the weights as they were, the product array block by block what the body
  stored — and every other buffer what the later lines compute from those. Five arguments bypass the region and
  are written by no line; the weight matrix is staged and read only: all six end as launched.
-/
import proofs.«147063_j80487687127273_2_alg».proof.Proof.KernelBody

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main to the end: the arrays at what the proof data say, every other buffer at what the later lines compute. -/
theorem run_main : θ_run defs (onTc (τ := τ) (main (F := F))) (s₀ m ρ)
    (Pipeline.FramePost cfgs (data m) 0 (Pipeline.afterTail₀ cfgs (data m) 0 (atEntry0 m) [hostOps1, hostOps1_1, hostOps1_2, hostOps1_3, hostOps1_4])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := atEntry0 m) (opss := [hostOps1, hostOps1_1, hostOps1_2, hostOps1_3, hostOps1_4]) (hsub := later_within) (hfresh := later_allocate_nothing) (hkeep := later_keep_arrays)
    (hmain := main_around m Variants.none) (hA := arrays_at_entry m) (hΦ := fun _ _ => rfl)

/-- The frame: @main runs to its end, faults nowhere, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (exit_arg0 m (data m) c),
     ((h c).2 main_arg1 (Pipeline.mem_restRefs_of main_arg1 (by decide) (by decide))).trans (exit_arg1 m (data m) c),
     ((h c).2 main_arg2 (Pipeline.mem_restRefs_of main_arg2 (by decide) (by decide))).trans (exit_arg2 m (data m) c),
     ((h c).2 main_arg3 (Pipeline.mem_restRefs_of main_arg3 (by decide) (by decide))).trans (exit_arg3 m (data m) c),
     ((h c).1 1).trans (((data m 0 c).arrAt_in 1 rfl _).trans ((arrays_at_entry m c 1).trans (entry_arg4 m c))),
     ((h c).2 main_arg5 (Pipeline.mem_restRefs_of main_arg5 (by decide) (by decide))).trans (exit_arg5 m (data m) c)⟩) (run_main m ρ)

end Cert.Kernel.Around

end
-- ==== Proof.IdealAround.lean ====
/-
  @main of the node-embedding pipeline around its one region. Before the region nine host lines look the
  node ids up in the embedding table (a negative id wrapped by the table's length first); the region is the
  linear layer x ↦ x · W on ten blocks of 10000 rows; after it seventy-three host lines build the edge lists
  with their self loops, the degrees, their inverse square roots under the two guards, the edge norms, the
  messages, their sum by target node, the bias and the mean over the nodes. Here: what every buffer holds when
  the region is entered, that the later lines stay within the buffers they may touch, allocate nothing and
  write none of the three arrays the region stages, and that no line ever writes an argument.
-/
import proofs.«147063_j80487687127273_2_alg».proof.Proof.Gen.KernelIdeal.Launch
import proofs.«147063_j80487687127273_2_alg».proof.Proof.Gen.KernelIdeal.Skeleton
import proofs.«147063_j80487687127273_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## The contents at the region's entry -/

/-- What core `c`'s buffers hold when the region is entered: the launch contents after the nine lines of the
    embedding lookup. -/
abbrev atEntry0 (c : Dev nD) : Valuation τ sig (Elt F) := StableHlo.after (List.flatten [hostOps0]) (fun b => m (c, b))
/-- The same, read at a reference of the core. -/
abbrev atEntry (c : Dev nD) (b : Ref sig .tc) : Buf (Elt F) ((c : Thread nD τ).loc b) := atEntry0 m c (Proc.devRef .tc b)

/-! ## No line allocates -/

theorem lookup_allocates_nothing : (hostOps0 : List (HloOp τ sig (Elt F))).Forall fun op => op.fresh = ∅ := by
  simp only [List.Forall]; repeat' constructor
theorem edges_allocate_nothing : (hostOps1 : List (HloOp τ sig (Elt F))).Forall fun op => op.fresh = ∅ := by
  simp only [List.Forall]; repeat' constructor
theorem guard1_allocates_nothing : (hostOps1_1 : List (HloOp τ sig (Elt F))).Forall fun op => op.fresh = ∅ := by
  simp only [List.Forall]; repeat' constructor
theorem rsqrt_allocates_nothing : (hostOps1_2 : List (HloOp τ sig (Elt F))).Forall fun op => op.fresh = ∅ := by
  simp only [List.Forall]; repeat' constructor
theorem guard2_allocates_nothing : (hostOps1_3 : List (HloOp τ sig (Elt F))).Forall fun op => op.fresh = ∅ := by
  simp only [List.Forall]; repeat' constructor
theorem aggregate_allocates_nothing : (hostOps1_4 : List (HloOp τ sig (Elt F))).Forall fun op => op.fresh = ∅ := by
  simp only [List.Forall]; repeat' constructor

/-! ## @main is the lookup, the region, the later lines -/

/-- @main reduces to the region continued by the seventy-three later lines, the buffers then at `atEntry`. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain (List.map StableHlo.seq [hostOps1, hostOps1_1, hostOps1_2, hostOps1_3, hostOps1_4])) :=
  Pipeline.hmain_around cfgs 0 defs₀ 𝒱₀ m main [hostOps0] [hostOps1, hostOps1_1, hostOps1_2, hostOps1_3, hostOps1_4] (by simp only [List.Forall]; exact hostOps0_sub)
    (by simp only [List.Forall]; exact lookup_allocates_nothing) main_chain

/-! ## The later lines' side conditions -/

/-- Every later line touches unscoped buffers of the core only; nothing being prefetched, each of those is one of
    the region's arrays or a buffer that bypasses the region. -/
theorem later_within : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem later_allocate_nothing : ∀ ops ∈ ([hostOps1, hostOps1_1, hostOps1_2, hostOps1_3, hostOps1_4] : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp edges_allocate_nothing) op hop
  · exact (List.forall_iff_forall_mem.mp guard1_allocates_nothing) op hop
  · exact (List.forall_iff_forall_mem.mp rsqrt_allocates_nothing) op hop
  · exact (List.forall_iff_forall_mem.mp guard2_allocates_nothing) op hop
  · exact (List.forall_iff_forall_mem.mp aggregate_allocates_nothing) op hop

/-- Each line writes its own result buffer and nothing else, so a reference that is none of the results is written
    by no later line: decided reference by reference over the seventy-three lines. -/
local macro "no_later_line_writes_it" : tactic => `(tactic| (
  simp only [hostOps1, hostOps1_1, hostOps1_2, hostOps1_3, hostOps1_4, List.flatten_cons, List.flatten_nil, List.append_nil,
    List.cons_append, List.nil_append, List.Forall, StableHlo.nullary_writes, StableHlo.unary_writes, StableHlo.binary_writes, StableHlo.ternary_writes, StableHlo.reshape_writes, Finset.mem_singleton]
  repeat' apply And.intro
  all_goals exact StableHlo.devRef_ne_of_ne (by decide)))
/-- The same over the nine lines of the lookup. -/
local macro "no_lookup_line_writes_it" : tactic => `(tactic| (
  simp only [hostOps0, List.flatten_cons, List.flatten_nil, List.append_nil,
    List.cons_append, List.nil_append, List.Forall, StableHlo.nullary_writes, StableHlo.unary_writes, StableHlo.binary_writes, StableHlo.ternary_writes, StableHlo.reshape_writes, Finset.mem_singleton]
  repeat' apply And.intro
  all_goals exact StableHlo.devRef_ne_of_ne (by decide)))

theorem later_keep_x : ∀ op ∈ (List.flatten [hostOps1, hostOps1_1, hostOps1_2, hostOps1_3, hostOps1_4] : List (HloOp τ sig (Elt F))), Proc.devRef .tc main_v6 ∉ op.writes :=
  List.forall_iff_forall_mem.mp (by no_later_line_writes_it)
theorem later_keep_w : ∀ op ∈ (List.flatten [hostOps1, hostOps1_1, hostOps1_2, hostOps1_3, hostOps1_4] : List (HloOp τ sig (Elt F))), Proc.devRef .tc main_arg4 ∉ op.writes :=
  List.forall_iff_forall_mem.mp (by no_later_line_writes_it)
theorem later_keep_xw : ∀ op ∈ (List.flatten [hostOps1, hostOps1_1, hostOps1_2, hostOps1_3, hostOps1_4] : List (HloOp τ sig (Elt F))), Proc.devRef .tc main_v7 ∉ op.writes :=
  List.forall_iff_forall_mem.mp (by no_later_line_writes_it)

/-- No later line writes an array the region stages: the looked-up rows, the weights, the product. -/
theorem later_keep_arrays : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes := by
  intro ops hops op hop w
  have hmem : op ∈ (List.flatten [hostOps1, hostOps1_1, hostOps1_2, hostOps1_3, hostOps1_4] : List (HloOp τ sig (Elt F))) := List.mem_flatten.mpr ⟨ops, hops, hop⟩
  fin_cases w
  · exact later_keep_x op hmem
  · exact later_keep_w op hmem
  · exact later_keep_xw op hmem

/-! ## The arguments, at the entry and at the end -/

theorem entry_arg0 (c : Dev nD) : atEntry m c main_arg0 = m ((c : Thread nD τ).loc main_arg0) :=
  StableHlo.after_of_forall_not_mem (b := Proc.devRef .tc main_arg0) _ _ (List.forall_iff_forall_mem.mp (by no_lookup_line_writes_it))
theorem entry_arg1 (c : Dev nD) : atEntry m c main_arg1 = m ((c : Thread nD τ).loc main_arg1) :=
  StableHlo.after_of_forall_not_mem (b := Proc.devRef .tc main_arg1) _ _ (List.forall_iff_forall_mem.mp (by no_lookup_line_writes_it))
theorem entry_arg2 (c : Dev nD) : atEntry m c main_arg2 = m ((c : Thread nD τ).loc main_arg2) :=
  StableHlo.after_of_forall_not_mem (b := Proc.devRef .tc main_arg2) _ _ (List.forall_iff_forall_mem.mp (by no_lookup_line_writes_it))
theorem entry_arg3 (c : Dev nD) : atEntry m c main_arg3 = m ((c : Thread nD τ).loc main_arg3) :=
  StableHlo.after_of_forall_not_mem (b := Proc.devRef .tc main_arg3) _ _ (List.forall_iff_forall_mem.mp (by no_lookup_line_writes_it))
theorem entry_arg4 (c : Dev nD) : atEntry m c main_arg4 = m ((c : Thread nD τ).loc main_arg4) :=
  StableHlo.after_of_forall_not_mem (b := Proc.devRef .tc main_arg4) _ _ (List.forall_iff_forall_mem.mp (by no_lookup_line_writes_it))
theorem entry_arg5 (c : Dev nD) : atEntry m c main_arg5 = m ((c : Thread nD τ).loc main_arg5) :=
  StableHlo.after_of_forall_not_mem (b := Proc.devRef .tc main_arg5) _ _ (List.forall_iff_forall_mem.mp (by no_lookup_line_writes_it))

/-- Argument 0 bypasses the region and no later line writes it: it ends as launched. -/
theorem exit_arg0 (dats : (p : Fin _) → (c : Dev nD) → Dat τ (Elt F) Unit ℕ (UR sig nD τ) ℕ (cfgs p) c) (c : Dev nD) :
    Pipeline.afterTail₀ cfgs dats 0 (atEntry0 m) [hostOps1, hostOps1_1, hostOps1_2, hostOps1_3, hostOps1_4] c main_arg0 = m ((c : Thread nD τ).loc main_arg0) := by
  unfold Pipeline.afterTail₀
  rw [StableHlo.after_of_forall_not_mem (b := Proc.devRef .tc main_arg0) _ _ (List.forall_iff_forall_mem.mp (by no_later_line_writes_it)),
    Pipeline.withArrays_of_ne _ c (atEntry0 m c) _ main_arg0 (by exact (by decide : ∀ w, Pipeline.arrRef spec0 w ≠ main_arg0))]
  exact entry_arg0 m c
/-- Argument 1 bypasses the region and no later line writes it: it ends as launched. -/
theorem exit_arg1 (dats : (p : Fin _) → (c : Dev nD) → Dat τ (Elt F) Unit ℕ (UR sig nD τ) ℕ (cfgs p) c) (c : Dev nD) :
    Pipeline.afterTail₀ cfgs dats 0 (atEntry0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by no_later_line_writes_it)),
    Pipeline.withArrays_of_ne _ c (atEntry0 m c) _ main_arg1 (by exact (by decide : ∀ w, Pipeline.arrRef spec0 w ≠ main_arg1))]
  exact entry_arg1 m c
/-- Argument 2 bypasses the region and no later line writes it: it ends as launched. -/
theorem exit_arg2 (dats : (p : Fin _) → (c : Dev nD) → Dat τ (Elt F) Unit ℕ (UR sig nD τ) ℕ (cfgs p) c) (c : Dev nD) :
    Pipeline.afterTail₀ cfgs dats 0 (atEntry0 m) [hostOps1, hostOps1_1, hostOps1_2, hostOps1_3, hostOps1_4] c main_arg2 = m ((c : Thread nD τ).loc main_arg2) := by
  unfold Pipeline.afterTail₀
  rw [StableHlo.after_of_forall_not_mem (b := Proc.devRef .tc main_arg2) _ _ (List.forall_iff_forall_mem.mp (by no_later_line_writes_it)),
    Pipeline.withArrays_of_ne _ c (atEntry0 m c) _ main_arg2 (by exact (by decide : ∀ w, Pipeline.arrRef spec0 w ≠ main_arg2))]
  exact entry_arg2 m c
/-- Argument 3 bypasses the region and no later line writes it: it ends as launched. -/
theorem exit_arg3 (dats : (p : Fin _) → (c : Dev nD) → Dat τ (Elt F) Unit ℕ (UR sig nD τ) ℕ (cfgs p) c) (c : Dev nD) :
    Pipeline.afterTail₀ cfgs dats 0 (atEntry0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (List.forall_iff_forall_mem.mp (by no_later_line_writes_it)),
    Pipeline.withArrays_of_ne _ c (atEntry0 m c) _ main_arg3 (by exact (by decide : ∀ w, Pipeline.arrRef spec0 w ≠ main_arg3))]
  exact entry_arg3 m c
/-- Argument 5 bypasses the region and no later line writes it: it ends as launched. -/
theorem exit_arg5 (dats : (p : Fin _) → (c : Dev nD) → Dat τ (Elt F) Unit ℕ (UR sig nD τ) ℕ (cfgs p) c) (c : Dev nD) :
    Pipeline.afterTail₀ cfgs dats 0 (atEntry0 m) [hostOps1, hostOps1_1, hostOps1_2, hostOps1_3, hostOps1_4] c main_arg5 = m ((c : Thread nD τ).loc main_arg5) := by
  unfold Pipeline.afterTail₀
  rw [StableHlo.after_of_forall_not_mem (b := Proc.devRef .tc main_arg5) _ _ (List.forall_iff_forall_mem.mp (by no_later_line_writes_it)),
    Pipeline.withArrays_of_ne _ c (atEntry0 m c) _ main_arg5 (by exact (by decide : ∀ w, Pipeline.arrRef spec0 w ≠ main_arg5))]
  exact entry_arg5 m c

end Cert.KernelIdeal.Around

end
-- ==== Proof.IdealBody.lean ====
/-
  The linear layer's body at one grid point. It is handed a block of 10000 looked-up rows (64 wide), the whole
  64 × 32 weight matrix and the output block's buffer; it loads the two inputs, rounds both to the narrower
  float format, multiplies them into a zero accumulator and stores the 10000 × 32 product over the whole output
  block (the body also loads the output buffer first and never uses what it read). Here: what the output buffer
  holds afterwards as a function of the two input blocks, the body's triple, the pipeline's proof data — each
  input buffer at its block of the array, the output buffer at the product — and the body obligation at every
  point.
-/
import proofs.«147063_j80487687127273_2_alg».proof.Proof.IdealAround

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The rows' staging buffer holds the point's block of rows whenever the body is called: the block is fetched at
    every point. -/
theorem rows_held {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights' staging buffer holds the weight matrix whenever the body is called: it is fetched at the first point,
    and at the later ones the block's index has not moved and the body left the buffer as it was. -/
theorem weights_held {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block's buffer -/

/-- The three rectangles the body touches: each buffer whole. -/
abbrev allRows : Rect S10000x64 := Rect.unit (s := S10000x64) ![0, 0] S10000x64.size inb_S10000x64_S10000x64_0_0
abbrev allWeights : Rect S64x32 := Rect.unit (s := S64x32) ![0, 0] S64x32.size inb_S64x32_S64x32_0_0
abbrev allOut : Rect S10000x32 := Rect.unit (s := S10000x32) ![0, 0] S10000x32.size inb_S10000x32_S10000x32_0_0

/-- The output block's buffer after the body, from the two input blocks: its one store, the product of the loaded
    rows and the loaded weights, laid over the whole buffer. -/
def productBlock (x0 : Vec F S10000x64 .f32) (x1 : Vec F S64x32 .f32) : Vec F S10000x32 .f32 :=
  View.canon [⟨allOut, k0_pay1 (View.ld x0 allRows) (View.ld x1 allWeights)⟩]

/-- The one store covers the buffer. -/
theorem store_covers (p0 : Vec F S10000x32 .f32) (y : S10000x32.Idx) :
    ∃ pc ∈ ([⟨allOut, p0⟩] : List (View.Piece (Elt F) S10000x32 .f32)), y ∈ pc.1.set :=
  View.cover_of_tiled [⟨allOut, p0⟩] S10000x32.size (by rfl) y

/-! ## The body's triple -/

set_option maxHeartbeats 1000000 in
/-- On whole staging buffers, the rows' at `x0`, the weights' at `x1` and the output's at anything, the body runs to
    its end without a fault, leaves the inputs as they were and the output at `productBlock x0 x1`. -/
theorem body_runs (c : Dev nD) (E : Set ℕ) (i : grid0.Coords) (arg1 : Memref sig .tc .vmem S10000x64 .f32) (harg1 : arg1.IsWhole) (arg2 : Memref sig .tc .vmem S64x32 .f32) (harg2 : arg2.IsWhole) (arg3 : Memref sig .tc .vmem S10000x32 .f32) (harg3 : arg3.IsWhole)
    (x0 : Vec F S10000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (productBlock x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The pipeline's proof data -/

/-- On core `c`: the arrays as the region finds them; after the body at point `t` the rows' buffer at its block, the
    weights' at the matrix, the output's at their product; the invariant the scoped rest and the generator register,
    untouched; nothing owed; full shares. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => productBlock (blockAt m c 0 t) (blockAt m c 1 t)
  Φ _ := Pipeline.ΦA spec0 c
  q _ := fullShare
  owed _ := 0

theorem arrays_at_entry (c : Dev nD) (w : Fin cfg0.W) : (data m 0 c).A w = atEntry m c (Pipeline.arrRef spec0 w) := by
  dsimp only [data]

theorem after_rows (c : Dev nD) (t : Fin cfg0.N) : (data m 0 c).after 0 t = blockAt m c 0 t := by dsimp only [data]
theorem after_weights (c : Dev nD) (t : Fin cfg0.N) : (data m 0 c).after 1 t = blockAt m c 1 t := by dsimp only [data]
theorem after_product (c : Dev nD) (t : Fin cfg0.N) : (data m 0 c).after 2 t = productBlock (blockAt m c 0 t) (blockAt m c 1 t) := by dsimp only [data]

theorem before_rows (c : Dev nD) (t : Fin cfg0.N) (d) : (data m 0 c).before 0 t d = blockAt m c 0 t :=
  rows_held m (data m 0 c) (arrays_at_entry m c 0) (after_rows m c) t d
theorem before_weights (c : Dev nD) (t : Fin cfg0.N) (d) : (data m 0 c).before 1 t d = blockAt m c 1 t :=
  weights_held m (data m 0 c) (arrays_at_entry m c 1) (after_weights m c) t d

/-! ## The body obligation -/

/-- What the body is called with at point `t`, the windows one by one, -/
def calledWith (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d)))

/-- and what it returns. -/
def returns (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t))

/-- The body at any point: the input buffers hold their blocks, so the triple applies; the invariant and the core's
    debts pass through unread. -/
theorem body_at_point (c : Dev nD) (t : Fin cfg0.N) :
    calledWith m c t ⊢ wp frame (wpE (defs₀ (F := F)) Variants.none c none) Set.univ (bodyAt0 t) (fun _ => returns m c t) := by
  unfold calledWith returns bodyAt0
  simp only [before_rows, before_weights]
  rw [show (data m 0 c).Φ t.succ = (data m 0 c).Φ t.castSucc from rfl,
    show (data m 0 c).owesAt () t.succ = (data m 0 c).owesAt () t.castSucc from rfl,
    after_rows, after_weights, after_product]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (data (F := F) m 0 c) (defs₀ (F := F)) Variants.none () Set.univ := fun t => by
  rw [bigSep_W0, bigSep_W0]
  exact body_at_point m c t

end Cert.KernelIdeal.Around

end
-- ==== Proof.IdealRun.lean ====
/-
  The whole run of @main: the lookup, the ten points of the linear layer, the seventy-three later lines. Every
  weakly fair execution terminates without a fault; at the end each array the region stages holds what the proof
  data say — the looked-up rows and the weights as they were, the product array block by block what the body
  stored — and every other buffer what the later lines compute from those. Five arguments bypass the region and
  are written by no line; the weight matrix is staged and read only: all six end as launched.
-/
import proofs.«147063_j80487687127273_2_alg».proof.Proof.IdealBody

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main to the end: the arrays at what the proof data say, every other buffer at what the later lines compute. -/
theorem run_main : θ_run defs (onTc (τ := τ) (main (F := F))) (s₀ m ρ)
    (Pipeline.FramePost cfgs (data m) 0 (Pipeline.afterTail₀ cfgs (data m) 0 (atEntry0 m) [hostOps1, hostOps1_1, hostOps1_2, hostOps1_3, hostOps1_4])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := atEntry0 m) (opss := [hostOps1, hostOps1_1, hostOps1_2, hostOps1_3, hostOps1_4]) (hsub := later_within) (hfresh := later_allocate_nothing) (hkeep := later_keep_arrays)
    (hmain := main_around m Variants.none) (hA := arrays_at_entry m) (hΦ := fun _ _ => rfl)

/-- The frame: @main runs to its end, faults nowhere, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (exit_arg0 m (data m) c),
     ((h c).2 main_arg1 (Pipeline.mem_restRefs_of main_arg1 (by decide) (by decide))).trans (exit_arg1 m (data m) c),
     ((h c).2 main_arg2 (Pipeline.mem_restRefs_of main_arg2 (by decide) (by decide))).trans (exit_arg2 m (data m) c),
     ((h c).2 main_arg3 (Pipeline.mem_restRefs_of main_arg3 (by decide) (by decide))).trans (exit_arg3 m (data m) c),
     ((h c).1 1).trans (((data m 0 c).arrAt_in 1 rfl _).trans ((arrays_at_entry m c 1).trans (entry_arg4 m c))),
     ((h c).2 main_arg5 (Pipeline.mem_restRefs_of main_arg5 (by decide) (by decide))).trans (exit_arg5 m (data m) c)⟩) (run_main m ρ)

end Cert.KernelIdeal.Around

end
-- ==== Proof.IdealSums.lean ====
/-
  The two matrix products, entry by entry, on the extended reals. The body multiplies a block of 10000 rows by
  the 64 × 32 weights into a zero accumulator, after rounding both to a narrower format — which changes nothing
  on the extended reals — so entry (r, c) of the block's product is the sum over k of row r's k-th entry times
  the weight at (k, c). The reference multiplies all 100000 rows at once on the host: entry (r, c) is the same
  sum over the same 64 products. Nothing here needs the entries to be finite: both are one and the same sum.
-/
import proofs.«147063_j80487687127273_2_alg».proof.Proof.Gen.KernelIdeal.Skeleton
import proofs.«147063_j80487687127273_2_alg».proof.Proof.Gen.ReferenceIdeal.Read
import Idealize.ShloMosaic.Lib.ValueIdx
import Idealize.ShloMosaic.Lib.Pipeline.Value
import Idealize.ShloMosaic.PureOps.Ideal.Laws

noncomputable section

namespace Cert.KernelIdeal.Linear

open Idealize.ShloMosaic Idealize.ShloMosaic.TcCoe Idealize.SL.Sem
open Cert.KernelIdeal.Gen

/-! ## One block -/

/-- Where the k-th term of entry `j` of a block's product reads the block of rows: row `j 0`, column `k`. -/
abbrev rowAt (j : S10000x32.Idx) (k : Fin 64) : S10000x64.Idx := fun a => match a with
  | ⟨0, _⟩ => ⟨(j 0).val, (j 0).isLt⟩
  | ⟨1, _⟩ => ⟨k.val, k.isLt⟩
/-- Where it reads the weights: row `k`, column `j 1`. -/
abbrev weightAt (j : S10000x32.Idx) (k : Fin 64) : S64x32.Idx := fun a => match a with
  | ⟨0, _⟩ => ⟨k.val, k.isLt⟩
  | ⟨1, _⟩ => ⟨(j 1).val, (j 1).isLt⟩

theorem block_lhs_row (j : S10000x32.Idx) (q : dot_S10000x64_S64x32_S10000x32_1_0_0_1_n_n.contr.Idx) :
    (dot_S10000x64_S64x32_S10000x32_1_0_0_1_n_n.lhsIdx j q 0).val = (j 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem block_lhs_k (j : S10000x32.Idx) (q : dot_S10000x64_S64x32_S10000x32_1_0_0_1_n_n.contr.Idx) :
    (dot_S10000x64_S64x32_S10000x32_1_0_0_1_n_n.lhsIdx j q 1).val = (q ⟨0, by decide⟩).val :=
  dot_S10000x64_S64x32_S10000x32_1_0_0_1_n_n.lhsIdx_val_of_single rfl j q
theorem block_rhs_k (j : S10000x32.Idx) (q : dot_S10000x64_S64x32_S10000x32_1_0_0_1_n_n.contr.Idx) :
    (dot_S10000x64_S64x32_S10000x32_1_0_0_1_n_n.rhsIdx j q 0).val = (q ⟨0, by decide⟩).val :=
  dot_S10000x64_S64x32_S10000x32_1_0_0_1_n_n.rhsIdx_val_of_single rfl j q
theorem block_rhs_col (j : S10000x32.Idx) (q : dot_S10000x64_S64x32_S10000x32_1_0_0_1_n_n.contr.Idx) :
    (dot_S10000x64_S64x32_S10000x32_1_0_0_1_n_n.rhsIdx j q 1).val = (j 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Entry `j` of what the body stores, from the two blocks it loaded: the sum over the 64 columns of a row times a
    weight. The cast to the same shape and the two roundings are the identity; the accumulator is zero. -/
theorem block_product_apply (x0 : Vec Ideal S10000x64 .f32) (x1 : Vec Ideal S64x32 .f32) (j : S10000x32.Idx) :
    k0_pay1 (F := Ideal) x0 x1 j = ∑ k : Fin 64, x0 (rowAt j k) * x1 (weightAt j k) := by
  unfold k0_pay1
  show FloatOps.matmul (F := Ideal) dot_S10000x64_S64x32_S10000x32_1_0_0_1_n_n none (shapeCast S10000x64 x0 shapeCasts_S10000x64_S10000x64) x1 (constant S10000x32 .f32 0x00000000#32) j = _
  rw [shapeCast_self, Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx j ((ValueIdx.contrEquiv1 dot_S10000x64_S64x32_S10000x32_1_0_0_1_n_n 64 rfl rfl).symm k) = rowAt j k := funext fun a => Fin.ext (by
    match a with
    | ⟨0, _⟩ => exact block_lhs_row _ _
    | ⟨1, _⟩ => exact (block_lhs_k _ _).trans hk)
  have er : dot_S10000x64_S64x32_S10000x32_1_0_0_1_n_n.rhsIdx j ((ValueIdx.contrEquiv1 dot_S10000x64_S64x32_S10000x32_1_0_0_1_n_n 64 rfl rfl).symm k) = weightAt j k := funext fun a => Fin.ext (by
    match a with
    | ⟨0, _⟩ => exact (block_rhs_k _ _).trans hk
    | ⟨1, _⟩ => exact block_rhs_col _ _)
  rw [el, er]

/-! ## The whole array -/

open Cert.ReferenceIdeal.Read (lidx_main_v7 ridx_main_v7 lhs_main_v7_0 lhs_main_v7_1 rhs_main_v7_0 rhs_main_v7_1)

/-- All 100000 rows times the weights, as the host computes it in one product. -/
def product (X : FVec Ideal Cert.ReferenceIdeal.S100000x64 .f32) (W : FVec Ideal Cert.ReferenceIdeal.S64x32 .f32) : FVec Ideal Cert.ReferenceIdeal.S100000x32 .f32 :=
  Host.dotGeneral (F := Ideal) Cert.ReferenceIdeal.dot_S100000x64_S64x32_S100000x32_1_0_0_1_n_n none X W

/-- Entry `i` of it: the same 64 products of row `i 0` with column `i 1` of the weights. -/
theorem product_apply (X : FVec Ideal Cert.ReferenceIdeal.S100000x64 .f32) (W : FVec Ideal Cert.ReferenceIdeal.S64x32 .f32) (i : Cert.ReferenceIdeal.S100000x32.Idx) :
    product X W i = ∑ k : Fin 64, X (lidx_main_v7 i k) * W (ridx_main_v7 i k) := by
  unfold product
  simp only [Host.dotGeneral]
  rw [Ideal.dotGeneral_apply, ← Equiv.sum_comp (ValueIdx.contrEquiv1 Cert.ReferenceIdeal.dot_S100000x64_S64x32_S100000x32_1_0_0_1_n_n 64 rfl rfl).symm]
  refine Finset.sum_congr rfl fun k _ => ?_
  have hk := ValueIdx.contrEquiv1_symm_val Cert.ReferenceIdeal.dot_S100000x64_S64x32_S100000x32_1_0_0_1_n_n 64 rfl rfl k
  have el : (Cert.ReferenceIdeal.dot_S100000x64_S64x32_S100000x32_1_0_0_1_n_n).lhsIdx i ((ValueIdx.contrEquiv1 Cert.ReferenceIdeal.dot_S100000x64_S64x32_S100000x32_1_0_0_1_n_n 64 rfl rfl).symm k) = lidx_main_v7 i k := funext fun a => Fin.ext (by
    match a with
    | ⟨0, _⟩ => exact lhs_main_v7_0 _ _
    | ⟨1, _⟩ => exact (lhs_main_v7_1 _ _).trans hk)
  have er : (Cert.ReferenceIdeal.dot_S100000x64_S64x32_S100000x32_1_0_0_1_n_n).rhsIdx i ((ValueIdx.contrEquiv1 Cert.ReferenceIdeal.dot_S100000x64_S64x32_S100000x32_1_0_0_1_n_n 64 rfl rfl).symm k) = ridx_main_v7 i k := funext fun a => Fin.ext (by
    match a with
    | ⟨0, _⟩ => exact (rhs_main_v7_0 _ _).trans hk
    | ⟨1, _⟩ => exact rhs_main_v7_1 _ _)
  rw [el, er]

end Cert.KernelIdeal.Linear

end
-- ==== Proof.IdealFinal.lean ====
/-
  From blocks to the array. At point t the pipeline writes back the block of rows 10000·t … 10000·t + 9999 of the
  product array; what the body left there is, entry by entry, the product of that block of looked-up rows with
  the weights — the very entries of the one whole product of all 100000 rows. The ten blocks tile the array, so
  after the region the product array holds the whole product.
-/
import proofs.«147063_j80487687127273_2_alg».proof.Proof.IdealRun
import proofs.«147063_j80487687127273_2_alg».proof.Proof.IdealSums

set_option maxRecDepth 16384

noncomputable section

namespace Cert.KernelIdeal.Linear

open Idealize.ShloMosaic Idealize.ShloMosaic.TcCoe Idealize.SL.Sem
open Idealize.ShloMosaic.Pipeline (Dat Cfg Window)
open Cert.KernelIdeal.Gen Cert.KernelIdeal.Around
open Cert.ReferenceIdeal.Read (lidx_main_v7 ridx_main_v7)

variable (m : (ℓ : Loc nD τ sig) → Buf (Elt Ideal) ℓ)

theorem zero_offsets : (![0, 0] : Fin 2 → Nat) = fun _ => 0 := funext fun a => by fin_cases a <;> rfl

/-- The printed index maps over the ten points: the rows' block and the product's block move together down the row
    axis, and every other block index is 0. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Each of the ten row blocks is some point's. -/
theorem every_block_is_a_point : ∀ q : Fin 10, ∃ t : Fin cfg0.N, win0_2.index t = ![q.val, 0] :=
  (by decide +kernel : ∀ q : Fin 10, ∃ t : Fin grid0.N, win0_2.index t = ![q.val, 0])

/-- What point `t` writes back is block `t` of the whole product of the looked-up rows and the weights. -/
theorem flushed_product (c : Dev nD) (t : Fin cfg0.N) :
    (data m 0 c).flushed 2 t = ((cfg0.win 2).blk t).view.read (Elt Ideal) (product (atEntry m c main_v6) (atEntry m c main_arg4)) := by
  show (cfg0.win 2).cut (grid0.coords t) ((data m 0 c).after 2 t) = _
  rw [after_product]
  unfold productBlock
  rw [View.canon_unit_zero zero_offsets]
  simp only [View.ld_unit_zero (S := S10000x64) zero_offsets, View.ld_unit_zero (S := S64x32) zero_offsets]
  obtain ⟨e0, e1, e2, e3, e4, e5⟩ := block_indices t
  funext j
  show k0_pay1 (F := Ideal) (blockAt m c 0 t) (blockAt m c 1 t) j
    = product (atEntry m c main_v6) (atEntry m c main_arg4) (((cfg0.win 2).blk t).view.emb j)
  refine (block_product_apply (blockAt m c 0 t) (blockAt m c 1 t) j).trans ?_
  refine Eq.trans ?_ (product_apply (atEntry m c main_v6) (atEntry m c main_arg4) (((cfg0.win 2).blk t).view.emb j)).symm
  refine Finset.sum_congr rfl fun k _ => ?_
  have hrow : ((cfg0.win 0).blk t).view.emb (rowAt j k) = lidx_main_v7 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have hweight : ((cfg0.win 1).blk t).view.emb (weightAt j k) = ridx_main_v7 (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 32 + 1 * (j 1).val = win0_2.index t (1 : Fin 2) * 32 + 1 * (j 1).val; omega
  have hx : blockAt m c 0 t (rowAt j k) = atEntry m c main_v6 (lidx_main_v7 (((cfg0.win 2).blk t).view.emb j) k) := by
    show atEntry m c main_v6 (((cfg0.win 0).blk t).view.emb (rowAt j k)) = _
    rw [hrow]
  have hw : blockAt m c 1 t (weightAt j k) = atEntry m c main_arg4 (ridx_main_v7 (((cfg0.win 2).blk t).view.emb j) k) := by
    show atEntry m c main_arg4 (((cfg0.win 1).blk t).view.emb (weightAt j k)) = _
    rw [hweight]
  rw [hx, hw]

/-- An index of the product array is in point `t`'s block iff each coordinate is in the block's range on its axis. -/
theorem mem_block (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v7).slice (win0_2.rect t)).set ↔ _
  rw [View.set_slice_whole, Rect.mem_set_unit]
  exact Iff.rfl

/-- Every entry of the product array is written back by the point of its row block: row r by point r / 10000. -/
theorem blocks_cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := every_block_is_a_point ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- After the region the product array is the whole product of the looked-up rows and the weights. -/
theorem product_array (c : Dev nD) : (data m 0 c).arrAt 2 cfg0.N = product (atEntry m c main_v6) (atEntry m c main_arg4) :=
  (data m 0 c).arrAt_eq_of_cover 2 (product (atEntry m c main_v6) (atEntry m c main_arg4)) (fun t _ => flushed_product m c t) (blocks_cover)

end Cert.KernelIdeal.Linear

end
-- ==== Proof.IdealExit.lean ====
/-
  The region, seen from the host, is one line. After the ten points the product array holds the whole product of
  the looked-up rows and the weights, the two arrays it read hold what they held, and no other buffer changed:
  exactly what the host's one product of the rows' array and the weights' array, written into the product array,
  would have left when run from the state in which the region was entered.
-/
import proofs.«147063_j80487687127273_2_alg».proof.Proof.IdealFinal

set_option maxRecDepth 16384

noncomputable section

namespace Cert.KernelIdeal.Linear

open Idealize.ShloMosaic Idealize.ShloMosaic.TcCoe Idealize.SL.Sem Idealize.ShloMosaic.StableHlo
open Idealize.ShloMosaic.Pipeline (Dat Cfg Window)
open Cert.KernelIdeal.Gen Cert.KernelIdeal.Around

variable (m : (ℓ : Loc nD τ sig) → Buf (Elt Ideal) ℓ)

/-- The host's one product of all the rows with the weights, as a line over the kernel's buffers: it reads the rows'
    array and the weights' array and writes the product array. -/
abbrev productLine : HloOp τ sig (Elt Ideal) :=
  StableHlo.binary main_v6 main_arg4 main_v7
    ((fun l r => Host.dotGeneral (F := Ideal) (φ₁ := .f32) (φ₂ := .f32) Cert.ReferenceIdeal.dot_S100000x64_S64x32_S100000x32_1_0_0_1_n_n none l r) :
      (⟨S100000x64, .f32⟩ : BufTy).Contents (Elt Ideal) → (⟨S64x32, .f32⟩ : BufTy).Contents (Elt Ideal) → (⟨S100000x32, .f32⟩ : BufTy).Contents (Elt Ideal))

/-- What every buffer holds when the region is left is what that line leaves when run from the region's entry. -/
theorem exit_is_product_line (c : Dev nD) :
    Pipeline.withArrays spec0 c (atEntry0 m c) (fun w => (data m 0 c).arrAt w cfg0.N) = productLine.result (atEntry0 m c) := by
  funext b
  by_cases h7 : b = Proc.devRef .tc main_v7
  · subst h7
    refine (Pipeline.withArrays_arr spec0 launch0.win.arr_inj c _ _ 2).trans ?_
    show (data m 0 c).arrAt 2 cfg0.N = _
    have hline : productLine.result (atEntry0 m c) (Proc.devRef .tc main_v7) = product (atEntry m c main_v6) (atEntry m c main_arg4) :=
      StableHlo.binary_result main_v6 main_arg4 main_v7 _ _ _ _ (atEntry0 m c)
    exact (product_array m c).trans hline.symm
  · rw [productLine.result_of_not_mem (atEntry0 m c) (by
      show b ∉ ({Proc.devRef .tc main_v7} : Finset (DevRef τ sig)); rw [Finset.mem_singleton]; exact h7)]
    by_cases h6 : b = Proc.devRef .tc main_v6
    · subst h6
      refine (Pipeline.withArrays_arr spec0 launch0.win.arr_inj c _ _ 0).trans ?_
      show (data m 0 c).arrAt 0 cfg0.N = _
      exact ((data m 0 c).arrAt_in 0 rfl _).trans (arrays_at_entry m c 0)
    · by_cases h4 : b = Proc.devRef .tc main_arg4
      · subst h4
        refine (Pipeline.withArrays_arr spec0 launch0.win.arr_inj c _ _ 1).trans ?_
        show (data m 0 c).arrAt 1 cfg0.N = _
        exact ((data m 0 c).arrAt_in 1 rfl _).trans (arrays_at_entry m c 1)
      · unfold Pipeline.withArrays
        rw [dif_neg]
        rintro ⟨w, e⟩
        fin_cases w
        · exact h6 e.symm
        · exact h4 e.symm
        · exact h7 e.symm

end Cert.KernelIdeal.Linear

end
-- ==== Proof.IdealResult.lean ====
/-
  The value @main returns. The later lines run from the state in which the region is left, and that state is the
  lookup followed by one host product, run from the launch contents. So the result is the lookup, one product and
  the later lines folded over the launch contents — the reference's own composed term, at arguments that agree.
-/
import proofs.«147063_j80487687127273_2_alg».proof.Proof.IdealExit

set_option maxRecDepth 16384

noncomputable section

namespace Cert.KernelIdeal.Linear

open Idealize.ShloMosaic Idealize.ShloMosaic.TcCoe Idealize.SL.Sem Idealize.ShloMosaic.StableHlo
open Idealize.ShloMosaic.Pipeline (Dat Cfg Window)
open Cert.KernelIdeal.Gen Cert.KernelIdeal.Around

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-! ## The two guards, spelt plainly

The two calls of the guard function are three lines each, stated over references that carry their tensor's type; as
operations they are the same three lines over the bare references. -/

/-- The three lines of the first guard (where the degree is positive take it, else one), written with the plain builders. -/
theorem guard1_plain : (hostOps1_1 : List (HloOp τ sig (Elt Ideal))) =
    [ StableHlo.unary main_cst_4 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.ternary main_v23 main_v19 main_call0_v1 main_v24 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl
/-- The three lines of the second guard (where the degree is positive take the inverse square root, else zero), likewise. -/
theorem guard2_plain : (hostOps1_3 : List (HloOp τ sig (Elt Ideal))) =
    [ StableHlo.unary main_cst_5 main_call1_v0 (id : (⟨S_, .f32⟩ : BufTy).Contents (Elt Ideal) → (⟨S_, .f32⟩ : BufTy).Contents (Elt Ideal)),
      StableHlo.unary main_call1_v0 main_call1_v1 (broadcastInDim S100000 ![] bcast_S_S100000 : (⟨S_, .f32⟩ : BufTy).Contents (Elt Ideal) → (⟨S100000, .f32⟩ : BufTy).Contents (Elt Ideal)),
      StableHlo.ternary main_v21 main_v25 main_call1_v1 main_v26 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

/-! ## The result -/

set_option maxRecDepth 65536 in
set_option maxHeartbeats 40000000 in
/-- What the later lines leave in the result buffer is the reference's composed term of arguments that agree. -/
theorem result_is_reference (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    Pipeline.afterTail₀ cfgs (data m) 0 (atEntry0 m) [hostOps1, hostOps1_1, hostOps1_2, hostOps1_3, hostOps1_4] c main_v61
      = Cert.ReferenceIdeal.Value.res_main_v61 m' c := by
  obtain ⟨h0, h1, h2, h3, h4, h5⟩ := hagree
  unfold Pipeline.afterTail₀
  show StableHlo.after (List.flatten [hostOps1, hostOps1_1, hostOps1_2, hostOps1_3, hostOps1_4])
      (Pipeline.withArrays spec0 c (atEntry0 m c) fun w => (data m 0 c).arrAt w cfg0.N) (Proc.devRef .tc main_v61) = _
  rw [exit_is_product_line]
  unfold Cert.ReferenceIdeal.Value.res_main_v61
  rw [h0, h1, h2, h3, h4, h5]
  rw [guard1_plain, guard2_plain]
  simp only [atEntry0, productLine, hostOps0, hostOps1, hostOps1_1, hostOps1_2, hostOps1_3, hostOps1_4, List.flatten_cons, List.flatten_nil,
    List.append_nil, List.cons_append, List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-! ## The run, with its result named -/

/-- Every weakly fair execution of @main terminates, faulting nowhere, with the result buffer at the reference's term of
    the agreeing arguments and the six argument arrays as launched. -/
theorem run_with_result (ρ : Dev nD → PrngReg)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    θ_run defs (onTc (τ := τ) (main (F := Ideal))) ⟨m, fun _ => 0, ρ⟩ (fun r => ∀ c : Dev nD,
      r.2.mem ((c.tc : Thread nD τ).loc main_v61) = Cert.ReferenceIdeal.Value.res_main_v61 m' c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v61 (Pipeline.mem_restRefs_of main_v61 (by decide) (by decide))).trans (result_is_reference m m' c (hagree c)),
     ((h c).2 main_arg0 (Pipeline.mem_restRefs_of main_arg0 (by decide) (by decide))).trans (exit_arg0 m (data m) c),
     ((h c).2 main_arg1 (Pipeline.mem_restRefs_of main_arg1 (by decide) (by decide))).trans (exit_arg1 m (data m) c),
     ((h c).2 main_arg2 (Pipeline.mem_restRefs_of main_arg2 (by decide) (by decide))).trans (exit_arg2 m (data m) c),
     ((h c).2 main_arg3 (Pipeline.mem_restRefs_of main_arg3 (by decide) (by decide))).trans (exit_arg3 m (data m) c),
     ((h c).1 1).trans (((data m 0 c).arrAt_in 1 rfl _).trans ((arrays_at_entry m c 1).trans (entry_arg4 m c))),
     ((h c).2 main_arg5 (Pipeline.mem_restRefs_of main_arg5 (by decide) (by decide))).trans (exit_arg5 m (data m) c)⟩) (run_main m ρ)

end Cert.KernelIdeal.Linear

end
-- ==== Proof.lean ====
/-
  A node-embedding pipeline: look the 100000 node ids up in a 1000 × 64 table, apply a linear layer x ↦ x · W
  (W is 64 × 32), add a self loop of weight one to every node, weigh each edge by the inverse square roots of its
  end points' degrees (a node of degree not above zero gets zero), sum the weighted messages into their target
  nodes, add the bias and take the mean over the nodes. The kernel computes the linear layer in ten blocks of
  10000 rows on the matrix unit, rounding both factors to a narrower float format first; the reference computes it
  as one host product. Every other line of the two programs is the same line.

  On the extended reals a change of float format is the identity and either product, entry by entry, is the same
  sum of 64 products — no law that needs finite entries is involved —, so the product arrays agree, the later lines
  are applied to equal values, and the results are equal. The three frames: each program runs to its end without a
  fault and leaves its six arguments as launched; for the two kernel programs that is the run of the lookup, the
  ten points of the region and the seventy-three later lines; for the reference it is its run read back. The ideal
  pass rewrote no operation, so there is nothing to preserve.
-/
import proofs.«147063_j80487687127273_2_alg».proof.Defs
import proofs.«147063_j80487687127273_2_alg».proof.Proof.Gen.Kernel
import proofs.«147063_j80487687127273_2_alg».proof.Proof.Gen.KernelIdeal
import proofs.«147063_j80487687127273_2_alg».proof.Proof.Gen.ReferenceIdeal
import proofs.«147063_j80487687127273_2_alg».proof.Proof.Gen.Pre_finite_inputs
import proofs.«147063_j80487687127273_2_alg».proof.Proof.Gen.ReferenceIdeal.Run
import proofs.«147063_j80487687127273_2_alg».proof.Proof.Gen.ReferenceIdeal.Read
import proofs.«147063_j80487687127273_2_alg».proof.Proof.KernelRun
import proofs.«147063_j80487687127273_2_alg».proof.Proof.IdealResult
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Around.frame m ρ

/-- So does the kernel read on the extended reals. -/
theorem frame_ideal : Cert.frame_KernelIdeal := fun m ρ _ => Cert.KernelIdeal.Around.frame m ρ

/-- The reference is host lines only: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From arguments that agree both programs end with the same thirty-two means. -/
theorem algebraic : Cert.algebraic_KernelIdeal_ReferenceIdeal := fun m ρ m' ρ' _ hagree =>
  ⟨fun c => Cert.ReferenceIdeal.Value.res_main_v61 m' c,
    Cert.KernelIdeal.Linear.run_with_result m m' ρ hagree,
    Cert.ReferenceIdeal.Value.run (F := Ideal) m' ρ'⟩

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
